-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x50176 : Shape := ⟨3, ![8, 128, 50176]⟩
abbrev S_ : Shape := ⟨0, ![]⟩

class Facts : Prop where
  bcast_S_S8x128x50176 : S_.BroadcastsInDim S8x128x50176 (![] : Fin 0 → Fin S8x128x50176.rank)
  reducesTo_S8x128x50176_S_d0_1_2 : S8x128x50176.ReducesTo [0, 1, 2] S_
  h_S_ : 0 < S_.numel

variable [Facts]

def fn {F : FTy → Type} [FloatOps F] (main_arg0 : FVec F S8x128x50176 .f32) (main_arg1 : FVec F S8x128x50176 .f32) : IVec S_ 1 :=
  let main_v0 : FVec F S8x128x50176 .f32 := Host.absf main_arg0
  let main_cst : FVec F S_ .f32 := constant S_ .f32 0x7F800000#32
  let main_v1 : FVec F S8x128x50176 .f32 := broadcastInDim S8x128x50176 ![] bcast_S_S8x128x50176 main_cst
  let main_v2 : IVec S8x128x50176 1 := cmpf .olt main_v0 main_v1
  let main_c : IVec S_ 1 := constantI S_ 1 1#1
  let main_v3 : IVec S_ 1 := (fun x v => Host.reduce IntOp.andi x v reducesTo_S8x128x50176_S_d0_1_2 h_S_) main_v2 main_c
  let main_v4 : FVec F S8x128x50176 .f32 := Host.absf main_arg1
  let main_cst_0 : FVec F S_ .f32 := constant S_ .f32 0x7F800000#32
  let main_v5 : FVec F S8x128x50176 .f32 := broadcastInDim S8x128x50176 ![] bcast_S_S8x128x50176 main_cst_0
  let main_v6 : IVec S8x128x50176 1 := cmpf .olt main_v4 main_v5
  let main_c_1 : IVec S_ 1 := constantI S_ 1 1#1
  let main_v7 : IVec S_ 1 := (fun x v => Host.reduce IntOp.andi x v reducesTo_S8x128x50176_S_d0_1_2 h_S_) main_v6 main_c_1
  let main_v8 : IVec S_ 1 := andi main_v3 main_v7
  main_v8
-- ==== Kernel.lean ====
abbrev S8x128x50176 : Shape := ⟨3, ![8, 128, 50176]⟩
abbrev S8x128x128 : Shape := ⟨3, ![8, 128, 128]⟩
abbrev S1x128x12544 : Shape := ⟨3, ![1, 128, 12544]⟩
abbrev S1x128x128 : Shape := ⟨3, ![1, 128, 128]⟩
abbrev S128x128 : Shape := ⟨2, ![128, 128]⟩
abbrev S128x12544 : Shape := ⟨2, ![128, 12544]⟩

abbrev nBuf : Space → Nat
  | .hbm => 3
  | .vmem => 6
  | .smem => 0
  | _ => 0

abbrev bufTy : (tb : Table) → Fin (tcTables nBuf tb) → BufTy
  | .hbm, ⟨0, _⟩ => ⟨S8x128x50176, .f32⟩
  | .hbm, ⟨1, _⟩ => ⟨S8x128x50176, .f32⟩
  | .hbm, ⟨2, _⟩ => ⟨S8x128x128, .f32⟩
  | .local _ .vmem, ⟨0, _⟩ => ⟨S1x128x12544, .f32⟩
  | .local _ .vmem, ⟨1, _⟩ => ⟨S1x128x12544, .f32⟩
  | .local _ .vmem, ⟨2, _⟩ => ⟨S1x128x12544, .f32⟩
  | .local _ .vmem, ⟨3, _⟩ => ⟨S1x128x12544, .f32⟩
  | .local _ .vmem, ⟨4, _⟩ => ⟨S1x128x128, .f32⟩
  | .local _ .vmem, ⟨5, _⟩ => ⟨S1x128x128, .f32⟩
  | _, _ => ⟨S8x128x50176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x128x12544_S1x128x12544_0_0_0 : ∀ a, (![0, 0, 0] : Fin 3 → Nat) a + S1x128x12544.size a ≤ S1x128x12544.size a
  h_S1x128x12544 : 0 < S1x128x12544.numel
  shapeCasts_S1x128x12544_S128x12544 : S1x128x12544.ShapeCasts S128x12544
  bitsLt_bf16_f32 : FTy.bits .bf16 < FTy.bits .f32
  dot_S128x12544_S128x12544_S128x128_1_1_0_0_n_n_wf : DotDims.WF S128x12544 S128x12544 S128x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x12544.size a ≤ S8x128x50176.size a
  hwx0_0 : ∀ i : grid0.Coords, EltTy.bits .f32 = 32 ∨ (Rect.block (s := S8x128x50176) S1x128x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x12544.size a ≤ S8x128x50176.size a
  hwx0_1 : ∀ i : grid0.Coords, EltTy.bits .f32 = 32 ∨ (Rect.block (s := S8x128x50176) S1x128x12544.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S8x128x128.size a
  hwx0_2 : ∀ i : grid0.Coords, EltTy.bits .f32 = 32 ∨ (Rect.block (s := S8x128x128) S1x128x128.size (cc0_transform_2 i) (hinb0_2 i)).WholeWords (EltTy.packing .f32)

variable [Facts₀]

def dot_S128x12544_S128x12544_S128x128_1_1_0_0_n_n : DotDims S128x12544 S128x12544 S128x128 where
  lhsContracting := [1]
  rhsContracting := [1]
  lhsNonContracting := [0]
  rhsNonContracting := [0]
  lhsBatch := []
  rhsBatch := []
  wf := dot_S128x12544_S128x12544_S128x128_1_1_0_0_n_n_wf

abbrev win0_0 : Pipeline.Window sig grid0 :=
  Pipeline.Window.ofSpec (Memref.whole main_arg0) S1x128x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x12544.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x50176 : Shape := ⟨3, ![8, 128, 50176]⟩
abbrev S8x128x128 : Shape := ⟨3, ![8, 128, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x128x50176, .f32⟩
  | .hbm, ⟨1, _⟩ => ⟨S8x128x50176, .f32⟩
  | .hbm, ⟨2, _⟩ => ⟨S8x128x128, .f32⟩
  | _, _ => ⟨S8x128x50176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x128x50176_S8x128x50176_S8x128x128_2_2_1_1_0_0_wf : DotDims.WF S8x128x50176 S8x128x50176 S8x128x128 [2] [2] [1] [1] [0] [0]

variable [Facts₀]

def dot_S8x128x50176_S8x128x50176_S8x128x128_2_2_1_1_0_0 : DotDims S8x128x50176 S8x128x50176 S8x128x128 where
  lhsContracting := [2]
  rhsContracting := [2]
  lhsNonContracting := [1]
  rhsNonContracting := [1]
  lhsBatch := [0]
  rhsBatch := [0]
  wf := dot_S8x128x50176_S8x128x50176_S8x128x128_2_2_1_1_0_0_wf

class Facts : Prop extends Facts₀ where

variable [Facts]
-- ==== Proof.TileSum.lean ====
/-
  The arithmetic that joins the two programs. Both compute, for a batch `b`, a row `r` of the first array and a row
  `p` of the second, the contraction over the 50176 columns of the products `X[b, r, k] · Y[b, p, k]`. One side sums
  the columns in a single pass; the other cuts them into four consecutive tiles of 12544 columns, sums each tile, and
  adds the four tile sums one after the other onto zero. On the extended reals addition is commutative and
  associative with neutral element zero, so regrouping a finite sum is free: no finiteness of the entries is needed.
-/
import Idealize.ShloMosaic.Lib.ValueIdx
import Idealize.ShloMosaic.PureOps.Ideal.Laws

noncomputable section

namespace Cert.RegionAgg

open Idealize.ShloMosaic Idealize.ShloMosaic.ValueIdx

/-- A sum over the first `J · n` naturals is the sum over `J` consecutive tiles of the sum over each tile's `n`
    naturals: tile `s` holds `s · n, …, s · n + (n - 1)`. -/
theorem sum_range_tiles {β : Type*} [AddCommMonoid β] (n : ℕ) (f : ℕ → β) :
    ∀ J : ℕ, ∑ k ∈ Finset.range (J * n), f k = ∑ s ∈ Finset.range J, ∑ h ∈ Finset.range n, f (s * n + h)
  | 0 => by simp
  | J + 1 => by
    rw [Nat.succ_mul, Finset.sum_range_add, sum_range_tiles n f J, Finset.sum_range_succ]

/-- The product of the entries in column `k` of row `(b, r)` of `X` and of row `(b, p)` of `Y`, as a function of
    natural numbers `b` and `k` (zero where `b` or `k` is outside the arrays, which no sum below reaches). -/
def term (X Y : (⟨3, ![8, 128, 50176]⟩ : Shape).Idx → EReal) (b : ℕ) (r p : Fin 128) (k : ℕ) : EReal :=
  if h : b < 8 ∧ k < 50176 then X (ix3 ⟨b, h.1⟩ r ⟨k, h.2⟩) * Y (ix3 ⟨b, h.1⟩ p ⟨k, h.2⟩) else 0

/-- What grid point `n` contributes: points are numbered batch-major, four to a batch, so point `n` works on batch
    `n / 4` and on the tile `n % 4` of the columns, and contributes that tile's sum of products. -/
def tileDot (X Y : (⟨3, ![8, 128, 50176]⟩ : Shape).Idx → EReal) (n : ℕ) (r p : Fin 128) : EReal :=
  ∑ h ∈ Finset.range 12544, term X Y (n / 4) r p (n % 4 * 12544 + h)

/-- The whole contraction in one pass: `∑ₖ X[b, r, k] · Y[b, p, k]` over all 50176 columns. -/
def rowDot (X Y : (⟨3, ![8, 128, 50176]⟩ : Shape).Idx → EReal) (b : Fin 8) (r p : Fin 128) : EReal :=
  ∑ k : Fin 50176, X (ix3 b r k) * Y (ix3 b p k)

/-- Zero plus the contributions of the four points `4b, 4b + 1, 4b + 2, 4b + 3` of batch `b` is the whole
    contraction: the four tiles partition the 50176 = 4 · 12544 columns. -/
theorem tiles_eq_rowDot (X Y : (⟨3, ![8, 128, 50176]⟩ : Shape).Idx → EReal) (b : Fin 8) (r p : Fin 128) :
    (0 : EReal) + ∑ s ∈ Finset.range (3 + 1), tileDot X Y (4 * b.val + s) r p = rowDot X Y b r p := by
  rw [zero_add]
  unfold rowDot
  have h1 : ∑ k : Fin 50176, X (ix3 b r k) * Y (ix3 b p k) = ∑ k : Fin 50176, term X Y b.val r p k.val :=
    Finset.sum_congr rfl fun k _ => by unfold term; rw [dif_pos ⟨b.isLt, k.isLt⟩]
  rw [h1]
  refine Eq.trans ?_ (Fin.sum_univ_eq_sum_range (fun k => term X Y b.val r p k) 50176).symm
  refine Eq.trans ?_ (sum_range_tiles 12544 (fun k => term X Y b.val r p k) 4).symm
  refine Finset.sum_congr rfl fun s hs => ?_
  have hs4 : s < 4 := Finset.mem_range.mp hs
  unfold tileDot
  rw [show (4 * b.val + s) / 4 = b.val by omega, show (4 * b.val + s) % 4 = s by omega]

end Cert.RegionAgg

end
-- ==== Proof.KernelTile.lean ====
/-
  What the kernel leaves in its result array, index by index. The grid has 32 points, four to a batch: point `n`
  stages the tile `n % 4` (12544 columns) of batch `n / 4` of both arguments; at the first point of a batch it
  writes zeros into the resident 128 × 128 output block, and at every point it adds to that block the product of the
  first tile with the transpose of the second. So after the batch's fourth point the block holds zero plus the four
  tile contributions, which is the whole contraction over the 50176 columns.
-/
import proofs.«161775_j63745904607805_2_alg».proof.Proof.Gen.KernelIdeal.Value
import proofs.«161775_j63745904607805_2_alg».proof.Proof.TileSum
import Idealize.ShloMosaic.Lib.ValueLayout

noncomputable section

namespace Cert.KernelIdeal.RegionAgg

open Cert.KernelIdeal Cert.KernelIdeal.Gen Cert.KernelIdeal.Value Idealize.ShloMosaic Idealize.ShloMosaic.TcCoe Idealize.SL.Sem
open Idealize.ShloMosaic.ValueIdx Cert.RegionAgg

/-! ## The body's two stored values at an index -/

/-- The value the first point of a batch stores: zero everywhere. -/
theorem pay1_apply (j : S1x128x128.Idx) : k0_pay1 (F := Ideal) j = 0 := by
  obtain ⟨u, r, p, rfl⟩ : ∃ (u : Fin 1) (r : Fin 128) (p : Fin 128), j = ix3 u r p := ⟨j 0, j 1, j 2, eq_ix3 j⟩
  unfold k0_pay1
  refine (shapeCast_ab_1ab_apply _ _ u r p).trans ?_
  exact Ideal.ofBits_zero_f32

/-- Where the matrix product reads its left operand: row of the output entry, column the contraction position. -/
theorem lhs_0 (i : S128x128.Idx) (q : dot_S128x12544_S128x12544_S128x128_1_1_0_0_n_n.contr.Idx) :
    (dot_S128x12544_S128x12544_S128x128_1_1_0_0_n_n.lhsIdx i q 0).val = (i 0).val := by
  unfold DotDims.lhsIdx
  rw [dif_neg (show ¬(0 : Fin S128x12544.rank) ∈ dot_S128x12544_S128x12544_S128x128_1_1_0_0_n_n.lhsBatch by decide), dif_pos (show (0 : Fin S128x12544.rank) ∈ dot_S128x12544_S128x12544_S128x128_1_1_0_0_n_n.lhsNonContracting by decide)]
  rfl
theorem lhs_1 (i : S128x128.Idx) (q : dot_S128x12544_S128x12544_S128x128_1_1_0_0_n_n.contr.Idx) :
    (dot_S128x12544_S128x12544_S128x128_1_1_0_0_n_n.lhsIdx i q 1).val = (q ⟨0, by decide⟩).val :=
  dot_S128x12544_S128x12544_S128x128_1_1_0_0_n_n.lhsIdx_val_of_single rfl i q
/-- Where it reads its right operand: row the output entry's column (the second operand enters transposed), column
    the contraction position. -/
theorem rhs_0 (i : S128x128.Idx) (q : dot_S128x12544_S128x12544_S128x128_1_1_0_0_n_n.contr.Idx) :
    (dot_S128x12544_S128x12544_S128x128_1_1_0_0_n_n.rhsIdx i q 0).val = (i 1).val := by
  unfold DotDims.rhsIdx
  rw [dif_neg (show ¬(0 : Fin S128x12544.rank) ∈ dot_S128x12544_S128x12544_S128x128_1_1_0_0_n_n.rhsBatch by decide), dif_pos (show (0 : Fin S128x12544.rank) ∈ dot_S128x12544_S128x12544_S128x128_1_1_0_0_n_n.rhsNonContracting by decide)]
  rfl
theorem rhs_1 (i : S128x128.Idx) (q : dot_S128x12544_S128x12544_S128x128_1_1_0_0_n_n.contr.Idx) :
    (dot_S128x12544_S128x12544_S128x128_1_1_0_0_n_n.rhsIdx i q 1).val = (q ⟨0, by decide⟩).val :=
  dot_S128x12544_S128x12544_S128x128_1_1_0_0_n_n.rhsIdx_val_of_single rfl i q

/-- The product of a 128 × 12544 tile `a` with the transpose of a 128 × 12544 tile `b`, into the zero accumulator,
    at entry `(r, p)`: the sum over the tile's columns of `a[r, k] · b[p, k]`. -/
theorem matmul_tile_apply (a b : FVec Ideal S128x12544 .bf16) (r p : Fin 128) :
    matmul dot_S128x12544_S128x12544_S128x128_1_1_0_0_n_n none a b (constant S128x128 .f32 0x00000000#32) (ix2 r p)
      = ∑ k : Fin 12544, a (ix2 r k) * b (ix2 p k) := by
  refine (Ideal.matmul_constant_zero_apply dot_S128x12544_S128x12544_S128x128_1_1_0_0_n_n none a b (ix2 r p)).trans ?_
  rw [← Equiv.sum_comp (contrEquiv1 dot_S128x12544_S128x12544_S128x128_1_1_0_0_n_n 12544 rfl rfl).symm]
  refine Finset.sum_congr rfl fun k _ => ?_
  have hk := contrEquiv1_symm_val dot_S128x12544_S128x12544_S128x128_1_1_0_0_n_n 12544 rfl rfl k
  have el : dot_S128x12544_S128x12544_S128x128_1_1_0_0_n_n.lhsIdx (ix2 r p) ((contrEquiv1 dot_S128x12544_S128x12544_S128x128_1_1_0_0_n_n 12544 rfl rfl).symm k) = ix2 r k := funext fun a => Fin.ext (by
    match a with
    | ⟨0, _⟩ => exact lhs_0 _ _
    | ⟨1, _⟩ => exact (lhs_1 _ _).trans hk)
  have er : dot_S128x12544_S128x12544_S128x128_1_1_0_0_n_n.rhsIdx (ix2 r p) ((contrEquiv1 dot_S128x12544_S128x12544_S128x128_1_1_0_0_n_n 12544 rfl rfl).symm k) = ix2 p k := funext fun a => Fin.ext (by
    match a with
    | ⟨0, _⟩ => exact rhs_0 _ _
    | ⟨1, _⟩ => exact (rhs_1 _ _).trans hk)
  rw [el, er]

/-- The value every point stores: what the output block held (`acc`) plus, at entry `(r, p)`, the sum over the
    staged tile's columns of the products of row `r` of the first tile and row `p` of the second. (The rounding of
    the tiles to a shorter float format before the product is the identity on exact values.) -/
theorem pay2_apply (x0 x1 : Vec Ideal S1x128x12544 .f32) (acc : Vec Ideal S1x128x128 .f32) (j : S1x128x128.Idx) :
    k0_pay2 (F := Ideal) x0 x1 acc j
      = acc j + ∑ k : Fin 12544, x0 (ix3 (0 : Fin 1) (j 1) k) * x1 (ix3 (0 : Fin 1) (j 2) k) := by
  obtain ⟨u, r, p, rfl⟩ : ∃ (u : Fin 1) (r : Fin 128) (p : Fin 128), j = ix3 u r p := ⟨j 0, j 1, j 2, eq_ix3 j⟩
  have hu : u = 0 := Subsingleton.elim _ _
  subst hu
  unfold k0_pay2
  refine (shapeCast_ab_1ab_apply _ _ (0 : Fin 1) r p).trans ?_
  refine (addf_apply _ _ _).trans ?_
  refine congrArg₂ (· + ·) (shapeCast_1ab_ab_apply acc _ r p) ?_
  refine (matmul_tile_apply _ _ r p).trans ?_
  refine Finset.sum_congr rfl fun k _ => ?_
  exact congrArg₂ (· * ·) (shapeCast_1ab_ab_apply x0 _ r k) (shapeCast_1ab_ab_apply x1 _ p k)

end Cert.KernelIdeal.RegionAgg

end
-- ==== Proof.KernelValue.lean ====
/-
  From the body's stored values to the result array. A point's staged tiles are read off the argument arrays where
  the index maps put them: point `t` stages, of both arguments, batch `t / 4`, all 128 rows, columns
  `(t % 4) · 12544 …`. With that, the value a point adds to the output block is that point's tile sum of products,
  the block after a batch's four points is zero plus the four tile sums, and the array the run leaves holds at
  `(b, r, p)` the contraction over all 50176 columns of `X[b, r, k] · Y[b, p, k]`.
-/
import proofs.«161775_j63745904607805_2_alg».proof.Proof.KernelTile

noncomputable section

namespace Cert.KernelIdeal.RegionAgg

open Cert.KernelIdeal Cert.KernelIdeal.Gen Cert.KernelIdeal.Value Idealize.ShloMosaic Idealize.ShloMosaic.TcCoe Idealize.SL.Sem
open Idealize.ShloMosaic.ValueIdx Cert.RegionAgg

variable (m : (ℓ : Loc nD τ sig) → Buf (Elt Ideal) ℓ)

/-! ## The staged tiles, read off the argument arrays -/

/-- The first argument's index map over the grid: point `t` stages block `(t / 4, 0, t % 4)`. -/
theorem idx_facts0 : ∀ t : Fin cfg0.N, win0_0.index t (0 : Fin 3) = t.val / 4 ∧ win0_0.index t (1 : Fin 3) = 0
    ∧ win0_0.index t (2 : Fin 3) = t.val % 4 :=
  (by decide +kernel : ∀ t : Fin grid0.N, _)

/-- The second argument's index map is the same. -/
theorem idx_facts1 : ∀ t : Fin cfg0.N, win0_1.index t (0 : Fin 3) = t.val / 4 ∧ win0_1.index t (1 : Fin 3) = 0
    ∧ win0_1.index t (2 : Fin 3) = t.val % 4 :=
  (by decide +kernel : ∀ t : Fin grid0.N, _)

/-- Entry `(r, k)` of the first argument's tile at point `t` is the argument at batch `t / 4`, row `r`, column
    `(t % 4) · 12544 + k`. -/
theorem iblk0_apply (c : Dev nD) (t : Fin cfg0.N) (r : Fin 128) (k : Fin 12544)
    (hb : t.val / 4 < 8) (hk : t.val % 4 * 12544 + k.val < 50176) :
    iblk m c 0 t (ix3 (0 : Fin 1) r k)
      = m ((c : Thread nD τ).loc main_arg0) (ix3 ⟨t.val / 4, hb⟩ r ⟨t.val % 4 * 12544 + k.val, hk⟩) := by
  obtain ⟨e0, e1, e2⟩ := idx_facts0 t
  have hb0 : (((cfg0.win 0).blk t).view.emb (ix3 (0 : Fin 1) r k) 0).val = win0_0.index t (0 : Fin 3) * 1 + 1 * (0 : ℕ) := rfl
  have hb1 : (((cfg0.win 0).blk t).view.emb (ix3 (0 : Fin 1) r k) 1).val = win0_0.index t (1 : Fin 3) * 128 + 1 * r.val := rfl
  have hb2 : (((cfg0.win 0).blk t).view.emb (ix3 (0 : Fin 1) r k) 2).val = win0_0.index t (2 : Fin 3) * 12544 + 1 * k.val := rfl
  show V m c main_arg0 (((cfg0.win 0).blk t).view.emb (ix3 (0 : Fin 1) r k)) = _
  refine congrArg (m ((c : Thread nD τ).loc main_arg0)) (funext fun a => Fin.ext ?_)
  match a with
  | ⟨0, _⟩ => show (((cfg0.win 0).blk t).view.emb (ix3 (0 : Fin 1) r k) 0).val = t.val / 4; rw [hb0]; omega
  | ⟨1, _⟩ => show (((cfg0.win 0).blk t).view.emb (ix3 (0 : Fin 1) r k) 1).val = r.val; rw [hb1]; omega
  | ⟨2, _⟩ => show (((cfg0.win 0).blk t).view.emb (ix3 (0 : Fin 1) r k) 2).val = t.val % 4 * 12544 + k.val; rw [hb2]; omega

/-- The same for the second argument's tile. -/
theorem iblk1_apply (c : Dev nD) (t : Fin cfg0.N) (r : Fin 128) (k : Fin 12544)
    (hb : t.val / 4 < 8) (hk : t.val % 4 * 12544 + k.val < 50176) :
    iblk m c 1 t (ix3 (0 : Fin 1) r k)
      = m ((c : Thread nD τ).loc main_arg1) (ix3 ⟨t.val / 4, hb⟩ r ⟨t.val % 4 * 12544 + k.val, hk⟩) := by
  obtain ⟨e0, e1, e2⟩ := idx_facts1 t
  have hb0 : (((cfg0.win 1).blk t).view.emb (ix3 (0 : Fin 1) r k) 0).val = win0_1.index t (0 : Fin 3) * 1 + 1 * (0 : ℕ) := rfl
  have hb1 : (((cfg0.win 1).blk t).view.emb (ix3 (0 : Fin 1) r k) 1).val = win0_1.index t (1 : Fin 3) * 128 + 1 * r.val := rfl
  have hb2 : (((cfg0.win 1).blk t).view.emb (ix3 (0 : Fin 1) r k) 2).val = win0_1.index t (2 : Fin 3) * 12544 + 1 * k.val := rfl
  show V m c main_arg1 (((cfg0.win 1).blk t).view.emb (ix3 (0 : Fin 1) r k)) = _
  refine congrArg (m ((c : Thread nD τ).loc main_arg1)) (funext fun a => Fin.ext ?_)
  match a with
  | ⟨0, _⟩ => show (((cfg0.win 1).blk t).view.emb (ix3 (0 : Fin 1) r k) 0).val = t.val / 4; rw [hb0]; omega
  | ⟨1, _⟩ => show (((cfg0.win 1).blk t).view.emb (ix3 (0 : Fin 1) r k) 1).val = r.val; rw [hb1]; omega
  | ⟨2, _⟩ => show (((cfg0.win 1).blk t).view.emb (ix3 (0 : Fin 1) r k) 2).val = t.val % 4 * 12544 + k.val; rw [hb2]; omega

/-- What point `t` adds at entry `(r, p)` of the output block: its tile's sum of products, in terms of the argument
    arrays (`x0`, `x1` name the two staged tiles). -/
theorem point_sum (c : Dev nD) (t : Fin cfg0.N) (r p : Fin 128) (x0 x1 : Vec Ideal S1x128x12544 .f32)
    (h0 : x0 = iblk m c 0 t) (h1 : x1 = iblk m c 1 t) :
    ∑ k : Fin 12544, x0 (ix3 (0 : Fin 1) r k) * x1 (ix3 (0 : Fin 1) p k)
      = tileDot (m ((c : Thread nD τ).loc main_arg0)) (m ((c : Thread nD τ).loc main_arg1)) t.val r p := by
  subst h0 h1
  have ht : t.val < 32 := lt_of_lt_of_eq t.isLt N_0
  unfold tileDot
  refine Eq.trans ?_ (Fin.sum_univ_eq_sum_range (fun h => term (m ((c : Thread nD τ).loc main_arg0)) (m ((c : Thread nD τ).loc main_arg1)) (t.val / 4) r p (t.val % 4 * 12544 + h)) 12544)
  refine Finset.sum_congr rfl fun k _ => ?_
  have hk := k.isLt
  have hb : t.val / 4 < 8 := by omega
  have hc : t.val % 4 * 12544 + k.val < 50176 := by omega
  show _ = term (m ((c : Thread nD τ).loc main_arg0)) (m ((c : Thread nD τ).loc main_arg1)) (t.val / 4) r p (t.val % 4 * 12544 + k.val)
  unfold term
  rw [dif_pos ⟨hb, hc⟩, iblk0_apply m c t r k hb hc, iblk1_apply m c t p k hb hc]

/-! ## The fold over a batch's four points, and the array the run leaves -/

/-- The result array after the run, at `(b, r, p)`: the contraction over all 50176 columns of the products of row
    `(b, r)` of the first argument and row `(b, p)` of the second. -/
theorem G2_apply (c : Dev nD) (b : Fin 8) (r p : Fin 128) :
    G2 (F := Ideal) m c (ix3 b r p)
      = rowDot (m ((c : Thread nD τ).loc main_arg0)) (m ((c : Thread nD τ).loc main_arg1)) b r p := by
  have hq : run2Of (ix3 b r p) = b.val := by
    show 1 * (b.val / 1 - 0) + 1 * (r.val / 128 - 0) + 1 * (p.val / 128 - 0) = b.val
    have := r.isLt; have := p.isLt; omega
  have hl1 : loc2Of (ix3 b r p) 1 = r := Fin.ext (Nat.mod_eq_of_lt r.isLt)
  have hl2 : loc2Of (ix3 b r p) 2 = p := Fin.ext (Nat.mod_eq_of_lt p.isLt)
  have hN : cfg0.N = 32 := N_0
  unfold G2
  rw [dif_pos (by rw [hq, hN]; have := b.isLt; omega)]
  refine (Pipeline.accAt_add_apply (ι := S1x128x128.Idx) (β := EReal) (reset2 m c) (step2 m c) (fun _ => 0)
    (fun n j => tileDot (m ((c : Thread nD τ).loc main_arg0)) (m ((c : Thread nD τ).loc main_arg1)) n (j 1) (j 2))
    (4 * run2Of (ix3 b r p)) 3 ?_ ?_ 3 le_rfl _ (loc2Of (ix3 b r p))).trans ?_
  · intro h j
    unfold reset2
    refine (pay2_apply (iblk m c 0 ⟨_, h⟩) (iblk m c 1 ⟨_, h⟩) (k0_pay1 (F := Ideal)) j).trans ?_
    exact congrArg₂ (· + ·) (pay1_apply j) (point_sum m c ⟨_, h⟩ (j 1) (j 2) (iblk m c 0 ⟨_, h⟩) (iblk m c 1 ⟨_, h⟩) rfl rfl)
  · intro n h acc j _ _
    unfold step2
    refine (pay2_apply (iblk m c 0 ⟨n, h⟩) (iblk m c 1 ⟨n, h⟩) acc j).trans ?_
    exact congrArg₂ (· + ·) rfl (point_sum m c ⟨n, h⟩ (j 1) (j 2) (iblk m c 0 ⟨n, h⟩) (iblk m c 1 ⟨n, h⟩) rfl rfl)
  · show (0 : EReal) + ∑ s ∈ Finset.range (3 + 1), tileDot (m ((c : Thread nD τ).loc main_arg0)) (m ((c : Thread nD τ).loc main_arg1)) (4 * run2Of (ix3 b r p) + s) (loc2Of (ix3 b r p) 1) (loc2Of (ix3 b r p) 2) = _
    rw [hq, hl1, hl2]
    exact tiles_eq_rowDot _ _ b r p

end Cert.KernelIdeal.RegionAgg

end
-- ==== Proof.RefAt.lean ====
/-
  The reference at an index. Its one operation is a batched contraction: entry `(b, r, p)` of the result is the sum
  over all 50176 columns `k` of `X[b, r, k] · Y[b, p, k]`, the batch axis shared, the last axis of both operands
  contracted.
-/
import proofs.«161775_j63745904607805_2_alg».proof.Proof.Gen.ReferenceIdeal.Read
import proofs.«161775_j63745904607805_2_alg».proof.Proof.TileSum

noncomputable section

namespace Cert.ReferenceIdeal.RegionAgg

open Cert.ReferenceIdeal Cert.ReferenceIdeal.Gen Cert.ReferenceIdeal.Read Idealize.ShloMosaic Idealize.ShloMosaic.TcCoe Idealize.SL.Sem
open Idealize.ShloMosaic.ValueIdx Cert.RegionAgg

/-- The left operand is read at `(b, r, k)`. -/
theorem lidx_eq (b : Fin 8) (r p : Fin 128) (k : Fin 50176) : lidx_main_v0 (ix3 b r p) k = ix3 b r k :=
  funext fun a => Fin.ext (by match a with | ⟨0, _⟩ => rfl | ⟨1, _⟩ => rfl | ⟨2, _⟩ => rfl)

/-- The right operand is read at `(b, p, k)`. -/
theorem ridx_eq (b : Fin 8) (r p : Fin 128) (k : Fin 50176) : ridx_main_v0 (ix3 b r p) k = ix3 b p k :=
  funext fun a => Fin.ext (by match a with | ⟨0, _⟩ => rfl | ⟨1, _⟩ => rfl | ⟨2, _⟩ => rfl)

/-- The reference's result at `(b, r, p)` is the whole contraction of row `(b, r)` of the first argument with row
    `(b, p)` of the second. -/
theorem ref_apply (x0 x1 : (⟨S8x128x50176, .f32⟩ : BufTy).Contents (Elt Ideal)) (b : Fin 8) (r p : Fin 128) :
    val_main_v0 (F := Ideal) x0 x1 (ix3 b r p) = rowDot x0 x1 b r p := by
  rw [val_main_v0_apply]
  unfold rowDot
  refine Finset.sum_congr rfl fun k _ => ?_
  rw [lidx_eq, ridx_eq]

end Cert.ReferenceIdeal.RegionAgg

end
-- ==== Proof.lean ====
/-
  The kernel computes, for each of 8 batches, the 128 × 128 matrix of contractions `out[b, r, p] = ∑ₖ X[b, r, k] · Y[b, p, k]`
  over 50176 columns, cutting the columns into four tiles of 12544 and accumulating the four tile products into an
  output block that stays resident across a batch's four grid points (zeroed at the first). The reference computes the
  same contraction in one batched operation. At exact values the rounding of the tiles before the product is the
  identity, a matrix product into a zero accumulator is the plain sum of products, and regrouping a finite sum on the
  extended reals is free (addition there is commutative and associative with neutral zero), so the two results agree
  entry by entry, for all inputs: the finiteness precondition is not used by the value argument.

  The three frame claims are the generated runs with their value part dropped; the idealization rewrote nothing, so
  its claim is trivial; the value claim sets the kernel's array after the run (Proof/KernelValue.lean) beside the
  reference's result (Proof/RefAt.lean): both are `rowDot` (Proof/TileSum.lean) of the argument arrays.
-/
import proofs.«161775_j63745904607805_2_alg».proof.Defs
import proofs.«161775_j63745904607805_2_alg».proof.Proof.Gen.Kernel.Frame
import proofs.«161775_j63745904607805_2_alg».proof.Proof.Gen.KernelIdeal.Value
import proofs.«161775_j63745904607805_2_alg».proof.Proof.Gen.Pre_finite_inputs
import proofs.«161775_j63745904607805_2_alg».proof.Proof.Gen.ReferenceIdeal.Run
import proofs.«161775_j63745904607805_2_alg».proof.Proof.KernelValue
import proofs.«161775_j63745904607805_2_alg».proof.Proof.RefAt
import Idealize.ShloMosaic.Adequacy
import Idealize.ShloMosaic.Init

noncomputable section

namespace Cert.Proof

open Idealize.ShloMosaic Idealize.SL.Sem Idealize.ShloMosaic.ValueIdx

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both runs end, and the reference's result is the kernel's array, entry by entry: at `(b, r, p)` both hold the
    contraction over all columns of row `(b, r)` of the first argument with row `(b, p)` of the second. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2, Cert.ReferenceIdeal.Read.val_main_v0_eq]
  funext i
  obtain ⟨b, r, p, rfl⟩ : ∃ (b : Fin 8) (r : Fin 128) (p : Fin 128), i = ix3 b r p := ⟨i 0, i 1, i 2, eq_ix3 i⟩
  exact (Cert.ReferenceIdeal.RegionAgg.ref_apply _ _ b r p).trans (Cert.KernelIdeal.RegionAgg.G2_apply m c b r p).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
